-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x4096 : Shape := ⟨3, ![8, 4096, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel

variable [Facts]

def fn {F : FTy → Type} [FloatOps F] (main_arg0 : FVec F S8x4096x64 .f32) (main_arg1 : FVec F S8x4096x64 .f32) (main_arg2 : FVec F S8x4096x64 .f32) (main_arg3 : IVec S8x4096x4096 1) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  main_v13
-- ==== Kernel.lean ====
abbrev S8x4096x64 : Shape := ⟨3, ![8, 4096, 64]⟩
abbrev S8x4096x4096 : Shape := ⟨3, ![8, 4096, 4096]⟩
abbrev S1x256x64 : Shape := ⟨3, ![1, 256, 64]⟩
abbrev S1x4096x64 : Shape := ⟨3, ![1, 4096, 64]⟩
abbrev S1x256x4096 : Shape := ⟨3, ![1, 256, 4096]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x4096, .i1⟩
  | .hbm, ⟨4, _⟩ => ⟨S8x4096x4096, .i32⟩
  | .hbm, ⟨5, _⟩ => ⟨S8x4096x64, .f32⟩
  | .hbm, ⟨6, _⟩ => ⟨S8x4096x4096, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x256x4096, .i32⟩
  | .local _ .vmem, ⟨5, _⟩ => ⟨S1x256x4096, .i32⟩
  | .local _ .vmem, ⟨6, _⟩ => ⟨S1x256x64, .f32⟩
  | .local _ .vmem, ⟨7, _⟩ => ⟨S1x256x64, .f32⟩
  | .local _ .vmem, ⟨8, _⟩ => ⟨S1x256x4096, .f32⟩
  | .local _ .vmem, ⟨9, _⟩ => ⟨S1x256x4096, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  shapeCasts_S256x4096_S1x256x4096 : S256x4096.ShapeCasts S1x256x4096
  shapeCasts_S256x64_S1x256x64 : S256x64.ShapeCasts S1x256x64
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S8x4096x64.size a
  hwx0_0 : ∀ i : grid0.Coords, EltTy.bits .f32 = 32 ∨ (Rect.block (s := S8x4096x64) S1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S8x4096x64.size a
  hwx0_2 : ∀ i : grid0.Coords, EltTy.bits .f32 = 32 ∨ (Rect.block (s := S8x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x4096x4096.size a
  hwx0_3 : ∀ i : grid0.Coords, EltTy.bits .i32 = 32 ∨ (Rect.block (s := S8x4096x4096) S1x256x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S8x4096x64.size a
  hwx0_4 : ∀ i : grid0.Coords, EltTy.bits .f32 = 32 ∨ (Rect.block (s := S8x4096x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S8x4096x4096.size a
  hwx0_5 : ∀ i : grid0.Coords, EltTy.bits .f32 = 32 ∨ (Rect.block (s := S8x4096x4096) S1x256x4096.size (cc0_transform_5 i) (hinb0_5 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x4096, .i1⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096x1, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Softmax.lean ====
/-
  Masked scaled dot-product attention over the extended reals, as plain functions of the argument arrays.

  For a batch b and a query row q the score against key row j is the dot product of the two 64-long rows divided by 8,
  replaced by -10000 where the mask bit is set.  A row of 4096 scores is turned into weights by the softmax: subtract the
  row's maximum (a fold of max from -infinity), exponentiate, and divide by the sum of the exponentials.  The context row
  is the weights' combination of the 4096 value rows.

  One law is proved here: scaling every left factor of a dot product by 2^-3 scales the dot product, that is, divides it
  by 8.  It holds on ALL extended reals, infinite entries included, because the scale is a nonnegative finite number and
  such a factor distributes over every extended-real sum.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The two exact constants -/

/-- The f32 word 0x3E000000 is 2^-3. -/
theorem ofBits_eighth : Ideal.ofBits .f32 0x3E000000#32 = ((1 / 8 : ℝ) : EReal) := by
  simp [Ideal.ofBits, Ideal.ieee, -EReal.coe_mul]; norm_num

/-- The f32 word 0x41000000 is 8. -/
theorem ofBits_eight : Ideal.ofBits .f32 0x41000000#32 = ((8 : ℝ) : EReal) := by
  simp [Ideal.ofBits, Ideal.ieee, -EReal.coe_mul]; norm_num

/-! ## A nonnegative finite factor moves through any extended-real sum -/

/-- Multiplying every term of a finite sum of extended reals by a factor c with 0 ≤ c < +infinity multiplies the sum. -/
theorem sum_mul_const {ι : Type} (s : Finset ι) (x : ι → EReal) {c : EReal} (h0 : 0 ≤ c) (ht : c ≠ ⊤) :
    ∑ i ∈ s, x i * c = (∑ i ∈ s, x i) * c := by
  classical
  induction s using Finset.induction_on with
  | empty => simp
  | insert a s ha ih =>
    rw [Finset.sum_insert ha, Finset.sum_insert ha, ih, EReal.right_distrib_of_nonneg_of_ne_top h0 ht]

/-- The dot product of a row scaled by 2^-3 with another row is the unscaled dot product divided by 8. -/
theorem scaled_dot (q k : Fin 64 → EReal) :
    ∑ d : Fin 64, (q d * Ideal.ofBits .f32 0x3E000000#32) * k d
      = Ideal.div (∑ d : Fin 64, q d * k d) (Ideal.ofBits .f32 0x41000000#32) := by
  rw [ofBits_eighth, ofBits_eight, Ideal.div_coe (by norm_num : (8 : ℝ) ≠ 0),
    ← sum_mul_const _ _ (EReal.coe_nonneg.mpr (by norm_num)) (EReal.coe_ne_top _)]
  exact Finset.sum_congr rfl fun d _ => mul_right_comm _ _ _

/-! ## The score of one query row against one key row -/

/-- The masked score: -10000 where the mask bit is set, otherwise the dot product divided by 8. -/
def score (mb : BitVec 1) (qrow krow : Fin 64 → EReal) : EReal :=
  Scalar.select mb (Ideal.ofBits .f32 0xC61C4000#32)
    (Ideal.div (∑ d : Fin 64, qrow d * krow d) (Ideal.ofBits .f32 0x41000000#32))

/-- A mask bit widened to 32 bits is nonzero exactly when the bit is set. -/
theorem ne_zero_of_widened (w : BitVec 1) : IntOp.cmpi .ne (w.setWidth 32) 0#32 = w := by
  rcases BitVec.eq_zero_or_eq_one w with h | h <;> subst h <;> decide

/-- The same score when the mask arrives widened to a 32-bit word and the scale 2^-3 is applied to the query row
    before the dot product. -/
theorem score_of_widened_scaled (w : BitVec 1) (qrow krow : Fin 64 → EReal) :
    Scalar.select (IntOp.cmpi .ne (w.setWidth 32) 0#32) (Ideal.ofBits .f32 0xC61C4000#32)
        (∑ d : Fin 64, (qrow d * Ideal.ofBits .f32 0x3E000000#32) * krow d)
      = score w qrow krow := by
  rw [ne_zero_of_widened, scaled_dot]; rfl

/-! ## The softmax of a row of 4096 scores -/

/-- The maximum of a row, folded from -infinity. -/
def rowMax (s : Fin 4096 → EReal) : EReal :=
  (Finset.univ : Finset (Fin 4096)).fold max (Ideal.ofBits .f32 0xFF800000#32) s

/-- Taking the maximum with -infinity once more changes nothing: the fold already starts there. -/
theorem max_rowMax (s : Fin 4096 → EReal) : max (Ideal.ofBits .f32 0xFF800000#32) (rowMax s) = rowMax s :=
  max_eq_right ((Finset.le_fold_max _).mpr (Or.inl le_rfl))

/-- The softmax weight of entry j: exp (s j - max) over the sum of those exponentials. -/
def softmaxRow (s : Fin 4096 → EReal) (j : Fin 4096) : EReal :=
  Ideal.div (Ideal.exp (s j - rowMax s)) (∑ k : Fin 4096, Ideal.exp (s k - rowMax s))

/-! ## The two results as functions of the whole argument arrays -/

/-- The row of masked scores of query (b, q) against all 4096 keys of batch b. -/
def scores (Q K : (⟨3, ![8, 4096, 64]⟩ : Shape).Idx → EReal) (M : (⟨3, ![8, 4096, 4096]⟩ : Shape).Idx → BitVec 1)
    (b : Fin 8) (q : Fin 4096) : Fin 4096 → EReal :=
  fun j => score (M (ix3 b q j)) (fun d => Q (ix3 b q d)) (fun d => K (ix3 b j d))

/-- The attention weights of query (b, q). -/
def weights (Q K : (⟨3, ![8, 4096, 64]⟩ : Shape).Idx → EReal) (M : (⟨3, ![8, 4096, 4096]⟩ : Shape).Idx → BitVec 1)
    (b : Fin 8) (q : Fin 4096) : Fin 4096 → EReal :=
  softmaxRow (scores Q K M b q)

/-- The attention matrix: entry (b, q, j) is the weight of key j for query (b, q). -/
def attnArray (Q K : (⟨3, ![8, 4096, 64]⟩ : Shape).Idx → EReal) (M : (⟨3, ![8, 4096, 4096]⟩ : Shape).Idx → BitVec 1) :
    (⟨3, ![8, 4096, 4096]⟩ : Shape).Idx → EReal :=
  fun i => weights Q K M (i 0) (i 1) (i 2)

/-- The context: entry (b, q, d) is the weighted combination over the keys j of value (b, j, d). -/
def ctxArray (Q K V : (⟨3, ![8, 4096, 64]⟩ : Shape).Idx → EReal) (M : (⟨3, ![8, 4096, 4096]⟩ : Shape).Idx → BitVec 1) :
    (⟨3, ![8, 4096, 64]⟩ : Shape).Idx → EReal :=
  fun i => ∑ j : Fin 4096, weights Q K M (i 0) (i 1) j * V (ix3 (i 0) j (i 2))

theorem attnArray_ix3 (Q K : (⟨3, ![8, 4096, 64]⟩ : Shape).Idx → EReal) (M : (⟨3, ![8, 4096, 4096]⟩ : Shape).Idx → BitVec 1)
    (b : Fin 8) (q j : Fin 4096) : attnArray Q K M (ix3 b q j) = weights Q K M b q j := rfl

theorem ctxArray_ix3 (Q K V : (⟨3, ![8, 4096, 64]⟩ : Shape).Idx → EReal) (M : (⟨3, ![8, 4096, 4096]⟩ : Shape).Idx → BitVec 1)
    (b : Fin 8) (q : Fin 4096) (d : Fin 64) :
    ctxArray Q K V M (ix3 b q d) = ∑ j : Fin 4096, weights Q K M b q j * V (ix3 b j d) := rfl

end Cert.Attn

end
-- ==== Proof.SoftmaxBlock.lean ====
/-
  The softmax of a 256 x 4096 block of scores, as a vector program computes it, read at one entry (p, j).

  The program takes each row's maximum (a reduction along the row from -infinity), keeps it as a 256 x 1 column, repeats
  the column along the row, subtracts, exponentiates, sums each row of exponentials the same way, and divides.  Read at
  (p, j) every step only involves row p: the result is the softmax weight of entry j of row p.
-/
import Idealize.ShloMosaic.PureOps.Ideal.Laws
import Idealize.ShloMosaic.Lib.Pipeline.Value
import Idealize.ShloMosaic.Lib.ValueIdx
import proofs.«138386_j33784212750985_2_alg».proof.Proof.LibKeepdims
import proofs.«138386_j33784212750985_2_alg».proof.Proof.Softmax

noncomputable section

namespace Cert.Attn

open Idealize.ShloMosaic Idealize.ShloMosaic.ValueIdx

/-- A row reduction's inserted index: result row p with column k put back is the entry (p, k). -/
theorem lift_row (hr : (⟨2, ![256, 4096]⟩ : Shape).Reduces [1] ⟨1, ![256]⟩) (p : Fin 256) (k : Fin 4096) :
    hr.lift (ix1 p) k = ix2 p k :=
  funext fun a => Fin.ext (by match a with | ⟨0, _⟩ => rfl | ⟨1, _⟩ => rfl)

/-- The row maxima, kept as a column and repeated along the rows, read at (p, j): the maximum of row p. -/
theorem rowmax_repeated (S : FVec Ideal ⟨2, ![256, 4096]⟩ .f32)
    (hr : (⟨2, ![256, 4096]⟩ : Shape).Reduces [1] ⟨1, ![256]⟩) (hφ : FKind.Formats .f32)
    (hacc : (0xFF800000#32 : BitVec 32) = FKind.maximumf.neutral .f32 hφ)
    (hc : (⟨1, ![256]⟩ : Shape).ShapeCasts ⟨2, ![256, 1]⟩) (hb : (⟨2, ![256, 1]⟩ : Shape).Broadcasts ⟨2, ![256, 4096]⟩)
    (p : Fin 256) (j : Fin 4096) :
    broadcastTo ⟨2, ![256, 4096]⟩
        (shapeCast ⟨2, ![256, 1]⟩ (multiReduction .maximumf [1] ⟨1, ![256]⟩ S 0xFF800000#32 hr hφ hacc) hc) hb (ix2 p j)
      = rowMax (fun k => S (ix2 p k)) := by
  refine (broadcastTo_a1_ab_apply _ hb p j).trans ?_
  refine (shapeCast_a_a1_apply _ hc p 0).trans ?_
  refine (Ideal.multiReduction_maximumf_single S _ hr hφ hacc (ix1 p)).trans ?_
  exact congrArg (Finset.univ.fold max _) (funext fun k => congrArg S (lift_row hr p k))

/-- The row sums, kept as a column and repeated along the rows, read at (p, j): the sum of row p. -/
theorem rowsum_repeated (E : FVec Ideal ⟨2, ![256, 4096]⟩ .f32)
    (hr : (⟨2, ![256, 4096]⟩ : Shape).Reduces [1] ⟨1, ![256]⟩) (hφ : FKind.Formats .f32)
    (hacc : (0x00000000#32 : BitVec 32) = FKind.add.neutral .f32 hφ)
    (hc : (⟨1, ![256]⟩ : Shape).ShapeCasts ⟨2, ![256, 1]⟩) (hb : (⟨2, ![256, 1]⟩ : Shape).Broadcasts ⟨2, ![256, 4096]⟩)
    (p : Fin 256) (j : Fin 4096) :
    broadcastTo ⟨2, ![256, 4096]⟩
        (shapeCast ⟨2, ![256, 1]⟩ (multiReduction .add [1] ⟨1, ![256]⟩ E 0x00000000#32 hr hφ hacc) hc) hb (ix2 p j)
      = ∑ k : Fin 4096, E (ix2 p k) := by
  refine (broadcastTo_a1_ab_apply _ hb p j).trans ?_
  refine (shapeCast_a_a1_apply _ hc p 0).trans ?_
  refine (Ideal.multiReduction_add_single E _ hr hφ hacc (ix1 p)).trans ?_
  exact Finset.sum_congr rfl fun k _ => congrArg E (lift_row hr p k)

/-- Exponentials of scores less a block M that is constant, equal to mx, along row p; divided by their row sums. -/
theorem normalised_exp_at (S M : FVec Ideal ⟨2, ![256, 4096]⟩ .f32) (mx : EReal) (p : Fin 256)
    (hM : ∀ k : Fin 4096, M (ix2 p k) = mx)
    (hr : (⟨2, ![256, 4096]⟩ : Shape).Reduces [1] ⟨1, ![256]⟩) (hφ : FKind.Formats .f32)
    (hacc : (0x00000000#32 : BitVec 32) = FKind.add.neutral .f32 hφ)
    (hc : (⟨1, ![256]⟩ : Shape).ShapeCasts ⟨2, ![256, 1]⟩) (hb : (⟨2, ![256, 1]⟩ : Shape).Broadcasts ⟨2, ![256, 4096]⟩)
    (j : Fin 4096) :
    divf (exp (subf S M))
        (broadcastTo ⟨2, ![256, 4096]⟩
          (shapeCast ⟨2, ![256, 1]⟩ (multiReduction .add [1] ⟨1, ![256]⟩ (exp (subf S M)) 0x00000000#32 hr hφ hacc) hc) hb)
        (ix2 p j)
      = Ideal.div (Ideal.exp (S (ix2 p j) - mx)) (∑ k : Fin 4096, Ideal.exp (S (ix2 p k) - mx)) := by
  refine (divf_apply _ _ _).trans ?_
  rw [rowsum_repeated (exp (subf S M)) hr hφ hacc hc hb p j]
  show Ideal.div (Ideal.exp (S (ix2 p j) - M (ix2 p j))) (∑ k : Fin 4096, Ideal.exp (S (ix2 p k) - M (ix2 p k))) = _
  simp only [hM]

/-- The whole softmax of a block of scores, as the vector program spells it, at entry (p, j). -/
theorem softmax_block_at (S : FVec Ideal ⟨2, ![256, 4096]⟩ .f32)
    (hr : (⟨2, ![256, 4096]⟩ : Shape).Reduces [1] ⟨1, ![256]⟩) (hφ : FKind.Formats .f32)
    (hmax : (0xFF800000#32 : BitVec 32) = FKind.maximumf.neutral .f32 hφ)
    (hadd : (0x00000000#32 : BitVec 32) = FKind.add.neutral .f32 hφ)
    (hc : (⟨1, ![256]⟩ : Shape).ShapeCasts ⟨2, ![256, 1]⟩) (hb : (⟨2, ![256, 1]⟩ : Shape).Broadcasts ⟨2, ![256, 4096]⟩)
    (p : Fin 256) (j : Fin 4096) :
    divf
        (exp (subf S (broadcastTo ⟨2, ![256, 4096]⟩
          (shapeCast ⟨2, ![256, 1]⟩ (multiReduction .maximumf [1] ⟨1, ![256]⟩ S 0xFF800000#32 hr hφ hmax) hc) hb)))
        (broadcastTo ⟨2, ![256, 4096]⟩
          (shapeCast ⟨2, ![256, 1]⟩ (multiReduction .add [1] ⟨1, ![256]⟩
            (exp (subf S (broadcastTo ⟨2, ![256, 4096]⟩
              (shapeCast ⟨2, ![256, 1]⟩ (multiReduction .maximumf [1] ⟨1, ![256]⟩ S 0xFF800000#32 hr hφ hmax) hc) hb)))
            0x00000000#32 hr hφ hadd) hc) hb)
        (ix2 p j)
      = softmaxRow (fun k => S (ix2 p k)) j :=
  normalised_exp_at S _ (rowMax fun k => S (ix2 p k)) p (fun k => rowmax_repeated S hr hφ hmax hc hb p k) hr hφ hadd hc hb j

end Cert.Attn

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibMatmulSumT.lean ====
/-
  A matrix product with the RIGHT operand contracted on its axis 1,  [n, K] x [w, K] -> [n, w]  (the left matrix against
  the transpose of the right one), at the ideal values, for any contraction length K and whichever record of dimension
  numbers spells it: the sum over the record's own contraction index, read at entry (p, q), is the sum over k < K of
  left(p, k) * right(q, k).  A kernel's matrix-unit product into a zero accumulator is that sum.
  The record enters only through six facts about its index maps (one contracted axis of extent K; both operands
  contracted on their axis 1; the result's axes the left's axis 0 and the right's axis 0).
-/
import Idealize.ShloMosaic.PureOps.Ideal.Laws
import Idealize.ShloMosaic.Lib.Pipeline.Value
import Idealize.ShloMosaic.Lib.ValueIdx

noncomputable section

namespace Cert.LibMatmulSumT

open Idealize.ShloMosaic Idealize.ShloMosaic.ValueIdx

/-- The index facts of a product against a transposed right operand, with contraction length `K`. -/
structure PlainT {n K w : ℕ} (d : DotDims ⟨2, ![n, K]⟩ ⟨2, ![w, K]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (i 1).val
  r1 : ∀ (i : (⟨2, ![n, w]⟩ : Shape).Idx) (q : d.contr.Idx), (d.rhsIdx i q 1).val = (q ⟨0, by rw [rank]; exact Nat.one_pos⟩).val

/-- The contraction sum at entry (p, q), re-indexed by k < K. -/
theorem sum_eq_T {n K w : ℕ} {d : DotDims ⟨2, ![n, K]⟩ ⟨2, ![w, K]⟩ ⟨2, ![n, w]⟩} (hd : PlainT d)
    (l : (⟨2, ![n, K]⟩ : Shape).Idx → EReal) (r : (⟨2, ![w, K]⟩ : Shape).Idx → EReal) (p : Fin n) (q : Fin w) :
    (∑ k : d.contr.Idx, l (d.lhsIdx (ix2 p q) k) * r (d.rhsIdx (ix2 p q) k)) = ∑ k : Fin K, l (ix2 p k) * r (ix2 q k) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 q k := funext fun a => Fin.ext (by
    match a with
    | ⟨0, _⟩ => exact hd.r0 _ _
    | ⟨1, _⟩ => exact (hd.r1 _ _).trans hk)
  rw [el, er]

/-- A matrix-unit product into the zero accumulator, at entry (p, q). -/
theorem matmul_zero_at_T {n K w : ℕ} {d : DotDims ⟨2, ![n, K]⟩ ⟨2, ![w, K]⟩ ⟨2, ![n, w]⟩} (hd : PlainT d) {φ₁ φ₂ : FTy}
    (prec : Option ContractPrecision) (l : FVec Ideal ⟨2, ![n, K]⟩ φ₁) (r : FVec Ideal ⟨2, ![w, K]⟩ φ₂) (p : Fin n) (q : Fin w) :
    FloatOps.matmul d prec l r (constant ⟨2, ![n, w]⟩ .f32 0x00000000#32) (ix2 p q) = ∑ k : Fin K, l (ix2 p k) * r (ix2 q k) :=
  (Ideal.matmul_constant_zero_apply d prec l r (ix2 p q)).trans (sum_eq_T hd l r p q)

end Cert.LibMatmulSumT

end
-- ==== Proof.KernelBlock.lean ====
/-
  What the kernel body computes from the blocks it loads, read at one entry.

  The body holds a 256-row block of queries, all 4096 key rows and value rows of the batch, and the matching 256 x 4096
  block of the mask widened to 32-bit words.  Entry (p, j) of the weights it stores is the softmax weight of key j in the
  row of scores of query row p, a score being the dot product of the query row scaled by 2^-3 with the key row, or
  -10000 where the mask word is nonzero.  Entry (p, d) of the context it stores is the sum over the keys j of weight
  (p, j) times value (j, d).  Roundings to a narrower float format are the identity on extended reals.
-/
import proofs.«138386_j33784212750985_2_alg».proof.Proof.Gen.KernelIdeal.Skeleton
import proofs.«138386_j33784212750985_2_alg».proof.Proof.SoftmaxBlock
import proofs.«138386_j33784212750985_2_alg».proof.Proof.LibMatmulSum
import proofs.«138386_j33784212750985_2_alg».proof.Proof.LibMatmulSumT
import Idealize.ShloMosaic.Lib.ValueLayout

noncomputable section

namespace Cert.KernelIdeal.Block

open Cert.KernelIdeal Cert.KernelIdeal.Gen Idealize.ShloMosaic Idealize.ShloMosaic.ValueIdx
open Cert.Attn

/-- The first product contracts the 64 features of a query row with those of a key row: left(p, k) * right(j, k). -/
theorem dims_scores : Cert.LibMatmulSumT.PlainT dot_S256x64_S4096x64_S256x4096_1_1_0_0_n_n :=
  ⟨rfl, rfl,
    fun i q => by
      unfold DotDims.lhsIdx
      rw [dif_neg (show ¬(0 : Fin S256x64.rank) ∈ dot_S256x64_S4096x64_S256x4096_1_1_0_0_n_n.lhsBatch by decide),
        dif_pos (show (0 : Fin S256x64.rank) ∈ dot_S256x64_S4096x64_S256x4096_1_1_0_0_n_n.lhsNonContracting by decide)]
      rfl,
    fun i q => dot_S256x64_S4096x64_S256x4096_1_1_0_0_n_n.lhsIdx_val_of_single rfl i q,
    fun i q => by
      unfold DotDims.rhsIdx
      rw [dif_neg (show ¬(0 : Fin S4096x64.rank) ∈ dot_S256x64_S4096x64_S256x4096_1_1_0_0_n_n.rhsBatch by decide),
        dif_pos (show (0 : Fin S4096x64.rank) ∈ dot_S256x64_S4096x64_S256x4096_1_1_0_0_n_n.rhsNonContracting by decide)]
      rfl,
    fun i q => dot_S256x64_S4096x64_S256x4096_1_1_0_0_n_n.rhsIdx_val_of_single rfl i q⟩

/-- The second product contracts the 4096 keys: left(p, k) * right(k, d). -/
theorem dims_context : Cert.LibMatmulSum.Plain dot_S256x4096_S4096x64_S256x64_1_0_0_1_n_n :=
  ⟨rfl, rfl,
    fun i q => by
      unfold DotDims.lhsIdx
      rw [dif_neg (show ¬(0 : Fin S256x4096.rank) ∈ dot_S256x4096_S4096x64_S256x64_1_0_0_1_n_n.lhsBatch by decide),
        dif_pos (show (0 : Fin S256x4096.rank) ∈ dot_S256x4096_S4096x64_S256x64_1_0_0_1_n_n.lhsNonContracting by decide)]
      rfl,
    fun i q => dot_S256x4096_S4096x64_S256x64_1_0_0_1_n_n.lhsIdx_val_of_single rfl i q,
    fun i q => dot_S256x4096_S4096x64_S256x64_1_0_0_1_n_n.rhsIdx_val_of_single rfl i q,
    fun i q => by
      unfold DotDims.rhsIdx
      rw [dif_neg (show ¬(1 : Fin S4096x64.rank) ∈ dot_S256x4096_S4096x64_S256x64_1_0_0_1_n_n.rhsBatch by decide),
        dif_pos (show (1 : Fin S4096x64.rank) ∈ dot_S256x4096_S4096x64_S256x64_1_0_0_1_n_n.rhsNonContracting by decide)]
      rfl⟩

/-- The row of scores the body forms for query row p of the block. -/
def blockScores (P0 : Vec Ideal S1x256x64 .f32) (P1 : Vec Ideal S1x4096x64 .f32) (P3 : Vec Ideal S1x256x4096 .i32)
    (p : Fin 256) : Fin 4096 → EReal :=
  fun k => Scalar.select (IntOp.cmpi .ne (P3 (ix3 0 p k)) 0#32) (Ideal.ofBits .f32 0xC61C4000#32)
    (∑ d : Fin 64, (P0 (ix3 0 p d) * Ideal.ofBits .f32 0x3E000000#32) * P1 (ix3 0 k d))

/-- The weights block at (p, j): the softmax weight of key j in the score row of query row p. -/
theorem weights_at (P0 : Vec Ideal S1x256x64 .f32) (P1 : Vec Ideal S1x4096x64 .f32) (P3 : Vec Ideal S1x256x4096 .i32)
    (p : Fin 256) (j : Fin 4096) :
    k0_pay2 (F := Ideal) P0 P1 P3 (ix2 p j) = softmaxRow (blockScores P0 P1 P3 p) j := by
  unfold k0_pay2
  dsimp only
  refine (softmax_block_at _ _ _ _ _ _ _ p j).trans ?_
  refine congrArg (softmaxRow · j) (funext fun k => ?_)
  refine (select_apply _ _ _ _).trans ?_
  unfold blockScores
  refine congr (congrArg (fun c => Scalar.select c (Ideal.ofBits .f32 0xC61C4000#32)) ?_) ?_
  · exact congrArg (IntOp.cmpi .ne · 0#32) (shapeCast_1ab_ab_apply P3 _ p k)
  · refine (Cert.LibMatmulSumT.matmul_zero_at_T dims_scores none _ _ p k).trans ?_
    refine Finset.sum_congr rfl fun d _ => ?_
    exact congr (congrArg HMul.hMul (congrArg (· * Ideal.ofBits .f32 0x3E000000#32) (shapeCast_1ab_ab_apply P0 _ p d)))
      (shapeCast_1ab_ab_apply P1 _ k d)

/-- The context block at (p, d): the weights of query row p combined with column d of the value rows. -/
theorem context_at (P0 : Vec Ideal S1x256x64 .f32) (P1 P2 : Vec Ideal S1x4096x64 .f32) (P3 : Vec Ideal S1x256x4096 .i32)
    (p : Fin 256) (d : Fin 64) :
    k0_pay4 (F := Ideal) P0 P1 P2 P3 (ix2 p d)
      = ∑ j : Fin 4096, softmaxRow (blockScores P0 P1 P3 p) j * P2 (ix3 0 j d) := by
  unfold k0_pay4
  refine (Cert.LibMatmulSum.matmul_zero_at dims_context none _ _ p d).trans ?_
  refine Finset.sum_congr rfl fun j _ => ?_
  exact congr (congrArg HMul.hMul (weights_at P0 P1 P3 p j)) (shapeCast_1ab_ab_apply P2 _ j d)

end Cert.KernelIdeal.Block

end
-- ==== Proof.KernelValue.lean ====
/-
  From what each grid point writes back to the two result arrays.

  The grid has a point for every batch b and every tile of 256 query rows.  At a point the query window and the mask
  window hold rows 256 i .. 256 i + 255 of batch b, the key and value windows hold all 4096 rows of batch b, and the two
  result windows are written back to the same rows of batch b.  So what a point writes back is the block, at those rows,
  of the attention matrix and of the context of the argument arrays; the blocks of all points tile the arrays.  The mask
  reaches the region widened from one bit to a 32-bit word by a conversion before the call.
-/
import proofs.«138386_j33784212750985_2_alg».proof.Proof.Gen.KernelIdeal.Value
import proofs.«138386_j33784212750985_2_alg».proof.Proof.KernelBlock
import Idealize.ShloMosaic.Lib.Pipeline.Value
import Idealize.ShloMosaic.Lib.StableHlo.Run
import Idealize.ShloMosaic.Lib.Tactic

noncomputable section

namespace Cert.KernelIdeal.Arrays

open Cert.KernelIdeal Cert.KernelIdeal.Gen Cert.KernelIdeal.Value Cert.KernelIdeal.Block
open Idealize.ShloMosaic Idealize.ShloMosaic.TcCoe Idealize.SL.Sem Idealize.ShloMosaic.ValueIdx
open Idealize.ShloMosaic.Pipeline (Dat)
open Cert.Attn

theorem hz : (![0, 0, 0] : Fin 3 → Nat) = fun _ => 0 := funext fun a => by fin_cases a <;> rfl

/-! ## What the body leaves in a block, over blocks that are rows of given arrays -/

/-- The score row the body forms from blocks that hold the rows of arrays Q, K and the widened mask. -/
theorem blockScores_eq (Q K : (⟨3, ![8, 4096, 64]⟩ : Shape).Idx → EReal) (Mk : (⟨3, ![8, 4096, 4096]⟩ : Shape).Idx → BitVec 1)
    (x0 : Vec Ideal S1x256x64 .f32) (x1 : Vec Ideal S1x4096x64 .f32) (x3 : Vec Ideal S1x256x4096 .i32)
    (p : Fin 256) (b : Fin 8) (q : Fin 4096)
    (h0 : ∀ d : Fin 64, x0 (ix3 0 p d) = Q (ix3 b q d))
    (h1 : ∀ (k : Fin 4096) (d : Fin 64), x1 (ix3 0 k d) = K (ix3 b k d))
    (h3 : ∀ k : Fin 4096, x3 (ix3 0 p k) = (Mk (ix3 b q k)).setWidth 32) :
    blockScores x0 x1 x3 p = scores Q K Mk b q := funext fun k => by
  unfold blockScores scores
  simp only [h0, h1, h3]
  exact score_of_widened_scaled _ _ _

/-- The weights block at a block index. -/
theorem weights_block_at (x0 : Vec Ideal S1x256x64 .f32) (x1 x2 : Vec Ideal S1x4096x64 .f32) (x3 : Vec Ideal S1x256x4096 .i32)
    (u : Fin 1) (p : Fin 256) (j : Fin 4096) :
    out0_5 x0 x1 x2 x3 (ix3 u p j) = softmaxRow (blockScores x0 x1 x3 p) j := by
  unfold out0_5
  rw [canon5_eq]
  show k0_pay2 (View.ld x0 r0_0) (View.ld x1 r0_1) (View.ld x3 r0_2) (ix5_0 (ix3 u p j)) = _
  simp only [View.ld_unit_zero (S := S1x256x64) hz, View.ld_unit_zero (S := S1x4096x64) hz, View.ld_unit_zero (S := S1x256x4096) hz]
  have e : ix5_0 (ix3 u p j) = ix2 p j := funext fun a => Fin.ext (by match a with | ⟨0, _⟩ => rfl | ⟨1, _⟩ => rfl)
  rw [e]
  exact weights_at x0 x1 x3 p j

/-- The context block at a block index. -/
theorem context_block_at (x0 : Vec Ideal S1x256x64 .f32) (x1 x2 : Vec Ideal S1x4096x64 .f32) (x3 : Vec Ideal S1x256x4096 .i32)
    (u : Fin 1) (p : Fin 256) (d : Fin 64) :
    out0_4 x0 x1 x2 x3 (ix3 u p d) = ∑ j : Fin 4096, softmaxRow (blockScores x0 x1 x3 p) j * x2 (ix3 0 j d) := by
  unfold out0_4
  rw [canon4_eq]
  show k0_pay4 (View.ld x0 r0_0) (View.ld x1 r0_1) (View.ld x2 r0_1) (View.ld x3 r0_2) (ix4_0 (ix3 u p d)) = _
  simp only [View.ld_unit_zero (S := S1x256x64) hz, View.ld_unit_zero (S := S1x4096x64) hz, View.ld_unit_zero (S := S1x256x4096) hz]
  have e : ix4_0 (ix3 u p d) = ix2 p d := funext fun a => Fin.ext (by match a with | ⟨0, _⟩ => rfl | ⟨1, _⟩ => rfl)
  rw [e]
  exact context_at x0 x1 x2 x3 p d

/-- A weights block whose inputs are rows of Q, K and the mask is the matching block of the attention matrix. -/
theorem weights_of_rows (Q K : (⟨3, ![8, 4096, 64]⟩ : Shape).Idx → EReal) (Mk : (⟨3, ![8, 4096, 4096]⟩ : Shape).Idx → BitVec 1)
    (x0 : Vec Ideal S1x256x64 .f32) (x1 x2 : Vec Ideal S1x4096x64 .f32) (x3 : Vec Ideal S1x256x4096 .i32)
    (y : S1x256x4096.Idx) (i : S8x4096x4096.Idx) (p : Fin 256) (j : Fin 4096) (b : Fin 8) (q : Fin 4096)
    (hy1 : (y 1).val = p.val) (hy2 : (y 2).val = j.val)
    (hi0 : (i 0).val = b.val) (hi1 : (i 1).val = q.val) (hi2 : (i 2).val = j.val)
    (h0 : ∀ d : Fin 64, x0 (ix3 0 p d) = Q (ix3 b q d))
    (h1 : ∀ (k : Fin 4096) (d : Fin 64), x1 (ix3 0 k d) = K (ix3 b k d))
    (h3 : ∀ k : Fin 4096, x3 (ix3 0 p k) = (Mk (ix3 b q k)).setWidth 32) :
    out0_5 x0 x1 x2 x3 y = attnArray Q K Mk i := by
  have ey : y = ix3 (0 : Fin 1) p j := funext fun a => Fin.ext (by
    match a with
    | ⟨0, _⟩ => have h := (y 0).isLt; show (y 0).val = 0; change (y 0).val < 1 at h; omega
    | ⟨1, _⟩ => exact hy1
    | ⟨2, _⟩ => exact hy2)
  have ei : i = ix3 b q j := funext fun a => Fin.ext (by
    match a with
    | ⟨0, _⟩ => exact hi0
    | ⟨1, _⟩ => exact hi1
    | ⟨2, _⟩ => exact hi2)
  rw [ey, ei, attnArray_ix3, weights_block_at]
  unfold weights
  rw [blockScores_eq Q K Mk x0 x1 x3 p b q h0 h1 h3]

/-- A context block whose inputs are rows of Q, K, V and the mask is the matching block of the context. -/
theorem context_of_rows (Q K Vv : (⟨3, ![8, 4096, 64]⟩ : Shape).Idx → EReal) (Mk : (⟨3, ![8, 4096, 4096]⟩ : Shape).Idx → BitVec 1)
    (x0 : Vec Ideal S1x256x64 .f32) (x1 x2 : Vec Ideal S1x4096x64 .f32) (x3 : Vec Ideal S1x256x4096 .i32)
    (y : S1x256x64.Idx) (i : S8x4096x64.Idx) (p : Fin 256) (d : Fin 64) (b : Fin 8) (q : Fin 4096)
    (hy1 : (y 1).val = p.val) (hy2 : (y 2).val = d.val)
    (hi0 : (i 0).val = b.val) (hi1 : (i 1).val = q.val) (hi2 : (i 2).val = d.val)
    (h0 : ∀ d : Fin 64, x0 (ix3 0 p d) = Q (ix3 b q d))
    (h1 : ∀ (k : Fin 4096) (d : Fin 64), x1 (ix3 0 k d) = K (ix3 b k d))
    (h2 : ∀ (k : Fin 4096) (d : Fin 64), x2 (ix3 0 k d) = Vv (ix3 b k d))
    (h3 : ∀ k : Fin 4096, x3 (ix3 0 p k) = (Mk (ix3 b q k)).setWidth 32) :
    out0_4 x0 x1 x2 x3 y = ctxArray Q K Vv Mk i := by
  have ey : y = ix3 (0 : Fin 1) p d := funext fun a => Fin.ext (by
    match a with
    | ⟨0, _⟩ => have h := (y 0).isLt; show (y 0).val = 0; change (y 0).val < 1 at h; omega
    | ⟨1, _⟩ => exact hy1
    | ⟨2, _⟩ => exact hy2)
  have ei : i = ix3 b q d := funext fun a => Fin.ext (by
    match a with
    | ⟨0, _⟩ => exact hi0
    | ⟨1, _⟩ => exact hi1
    | ⟨2, _⟩ => exact hi2)
  rw [ey, ei, ctxArray_ix3, context_block_at]
  unfold weights
  rw [blockScores_eq Q K Mk x0 x1 x3 p b q h0 h1 h3]
  exact Finset.sum_congr rfl fun k _ => by rw [h2]

/-! ## The argument arrays, and the mask as the region finds it -/

variable (m : (ℓ : Loc nD τ sig) → Buf (Elt Ideal) ℓ) (ρ : Dev nD → PrngReg)

/-- The query, key, value and mask arrays of core c at launch. -/
abbrev argQ (c : Dev nD) : (⟨3, ![8, 4096, 64]⟩ : Shape).Idx → EReal := m ((c : Thread nD τ).loc main_arg0)
abbrev argK (c : Dev nD) : (⟨3, ![8, 4096, 64]⟩ : Shape).Idx → EReal := m ((c : Thread nD τ).loc main_arg1)
abbrev argV (c : Dev nD) : (⟨3, ![8, 4096, 64]⟩ : Shape).Idx → EReal := m ((c : Thread nD τ).loc main_arg2)
abbrev argM (c : Dev nD) : (⟨3, ![8, 4096, 4096]⟩ : Shape).Idx → BitVec 1 := m ((c : Thread nD τ).loc main_arg3)

/-- The mask array the region finds is the mask argument with each bit widened to a 32-bit word. -/
theorem V_mask_apply (c : Dev nD) (i : S8x4096x4096.Idx) :
    (V m c main_v0 : S8x4096x4096.Idx → BitVec 32) i = (argM m c i).setWidth 32 := by
  have e : (V m c main_v0 : S8x4096x4096.Idx → BitVec 32) = extui 32 (argM m c) (by decide) := by
    dsimp only [V, hostOps0]; after_results
  rw [e]; rfl

/-! ## The index maps over the grid -/

/-- Decided over the 128 points: the query, mask and both result windows sit at block (b, i, 0); the key and value
    windows at block (b, 0, 0); b < 8 and i < 16. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (0 : Fin 3) ≤ 7 ∧ win0_5.index t (1 : Fin 3) ≤ 15 ∧ win0_5.index t (2 : Fin 3) = 0 :=
  (by decide +kernel : ∀ t : Fin grid0.N, _)

/-- Every block (b, i, 0) of the results is some point's. -/
theorem idx_onto : ∀ (q0 : Fin 8) (q1 : Fin 16), ∃ t : Fin cfg0.N, win0_5.index t = ![q0.val, q1.val, 0] :=
  (by decide +kernel : ∀ (q0 : Fin 8) (q1 : Fin 16), ∃ t : Fin grid0.N, win0_5.index t = ![q0.val, q1.val, 0])

/-! ## What a point writes back -/

/-- Point t writes back, to the weights array, block t of the attention matrix of the arguments. -/
theorem flushed5_eq (c : Dev nD) (t : Fin cfg0.N) :
    (dats m 0 c).flushed 5 t
      = ((cfg0.win 5).blk t).view.read (Elt Ideal) (attnArray (argQ m c) (argK m c) (argM m c)) := by
  rw [flushed5]
  obtain ⟨a00, a01, a02, a10, a11, a12, a20, a21, a22, a30, a31, a32, a40, a41, a42, b0, b1, b2⟩ := idx_facts t
  funext y
  have hy0 : (y 0).val < 1 := (y 0).isLt
  have hy1 : (y 1).val < 256 := (y 1).isLt
  have hy2 : (y 2).val < 4096 := (y 2).isLt
  show out0_5 (iblk m c 0 t) (iblk m c 1 t) (iblk m c 2 t) (iblk m c 3 t) y
      = attnArray (argQ m c) (argK m c) (argM m c) (((cfg0.win 5).blk t).view.emb y)
  refine weights_of_rows (argQ m c) (argK m c) (argM m c) (iblk m c 0 t) (iblk m c 1 t) (iblk m c 2 t) (iblk m c 3 t) y
    (((cfg0.win 5).blk t).view.emb y) ⟨(y 1).val, hy1⟩ ⟨(y 2).val, hy2⟩ ⟨win0_5.index t (0 : Fin 3), by omega⟩
    ⟨win0_5.index t (1 : Fin 3) * 256 + (y 1).val, by omega⟩ rfl rfl ?_ ?_ ?_ ?_ ?_ ?_
  · show win0_5.index t (0 : Fin 3) * 1 + 1 * (y 0).val = win0_5.index t (0 : Fin 3); omega
  · show win0_5.index t (1 : Fin 3) * 256 + 1 * (y 1).val = win0_5.index t (1 : Fin 3) * 256 + (y 1).val; omega
  · show win0_5.index t (2 : Fin 3) * 4096 + 1 * (y 2).val = (y 2).val; omega
  · intro d
    show V m c main_arg0 (((cfg0.win 0).blk t).view.emb (ix3 (0 : Fin 1) (⟨(y 1).val, hy1⟩ : Fin 256) d)) = argQ m c _
    rw [V_main_arg0]
    refine congrArg (argQ m c) (funext fun a => Fin.ext ?_)
    match a with
    | ⟨0, _⟩ => show win0_0.index t (0 : Fin 3) * 1 + 1 * 0 = win0_5.index t (0 : Fin 3); omega
    | ⟨1, _⟩ => show win0_0.index t (1 : Fin 3) * 256 + 1 * (y 1).val = win0_5.index t (1 : Fin 3) * 256 + (y 1).val; omega
    | ⟨2, _⟩ => show win0_0.index t (2 : Fin 3) * 64 + 1 * d.val = d.val; omega
  · intro k d
    show V m c main_arg1 (((cfg0.win 1).blk t).view.emb (ix3 (0 : Fin 1) k d)) = argK m c _
    rw [V_main_arg1]
    refine congrArg (argK m c) (funext fun a => Fin.ext ?_)
    match a with
    | ⟨0, _⟩ => show win0_1.index t (0 : Fin 3) * 1 + 1 * 0 = win0_5.index t (0 : Fin 3); omega
    | ⟨1, _⟩ => show win0_1.index t (1 : Fin 3) * 4096 + 1 * k.val = k.val; omega
    | ⟨2, _⟩ => show win0_1.index t (2 : Fin 3) * 64 + 1 * d.val = d.val; omega
  · intro k
    show (V m c main_v0 : S8x4096x4096.Idx → BitVec 32) (((cfg0.win 3).blk t).view.emb (ix3 (0 : Fin 1) (⟨(y 1).val, hy1⟩ : Fin 256) k))
        = (argM m c _).setWidth 32
    rw [V_mask_apply]
    refine congrArg (fun z => (argM m c z).setWidth 32) (funext fun a => Fin.ext ?_)
    match a with
    | ⟨0, _⟩ => show win0_3.index t (0 : Fin 3) * 1 + 1 * 0 = win0_5.index t (0 : Fin 3); omega
    | ⟨1, _⟩ => show win0_3.index t (1 : Fin 3) * 256 + 1 * (y 1).val = win0_5.index t (1 : Fin 3) * 256 + (y 1).val; omega
    | ⟨2, _⟩ => show win0_3.index t (2 : Fin 3) * 4096 + 1 * k.val = k.val; omega

/-- Point t writes back, to the context array, block t of the context of the arguments. -/
theorem flushed4_eq (c : Dev nD) (t : Fin cfg0.N) :
    (dats m 0 c).flushed 4 t
      = ((cfg0.win 4).blk t).view.read (Elt Ideal) (ctxArray (argQ m c) (argK m c) (argV m c) (argM m c)) := by
  rw [flushed4]
  obtain ⟨a00, a01, a02, a10, a11, a12, a20, a21, a22, a30, a31, a32, a40, a41, a42, b0, b1, b2⟩ := idx_facts t
  funext y
  have hy0 : (y 0).val < 1 := (y 0).isLt
  have hy1 : (y 1).val < 256 := (y 1).isLt
  have hy2 : (y 2).val < 64 := (y 2).isLt
  show out0_4 (iblk m c 0 t) (iblk m c 1 t) (iblk m c 2 t) (iblk m c 3 t) y
      = ctxArray (argQ m c) (argK m c) (argV m c) (argM m c) (((cfg0.win 4).blk t).view.emb y)
  refine context_of_rows (argQ m c) (argK m c) (argV m c) (argM m c) (iblk m c 0 t) (iblk m c 1 t) (iblk m c 2 t) (iblk m c 3 t) y
    (((cfg0.win 4).blk t).view.emb y) ⟨(y 1).val, hy1⟩ ⟨(y 2).val, hy2⟩ ⟨win0_5.index t (0 : Fin 3), by omega⟩
    ⟨win0_5.index t (1 : Fin 3) * 256 + (y 1).val, by omega⟩ rfl rfl ?_ ?_ ?_ ?_ ?_ ?_ ?_
  · show win0_4.index t (0 : Fin 3) * 1 + 1 * (y 0).val = win0_5.index t (0 : Fin 3); omega
  · show win0_4.index t (1 : Fin 3) * 256 + 1 * (y 1).val = win0_5.index t (1 : Fin 3) * 256 + (y 1).val; omega
  · show win0_4.index t (2 : Fin 3) * 64 + 1 * (y 2).val = (y 2).val; omega
  · intro d
    show V m c main_arg0 (((cfg0.win 0).blk t).view.emb (ix3 (0 : Fin 1) (⟨(y 1).val, hy1⟩ : Fin 256) d)) = argQ m c _
    rw [V_main_arg0]
    refine congrArg (argQ m c) (funext fun a => Fin.ext ?_)
    match a with
    | ⟨0, _⟩ => show win0_0.index t (0 : Fin 3) * 1 + 1 * 0 = win0_5.index t (0 : Fin 3); omega
    | ⟨1, _⟩ => show win0_0.index t (1 : Fin 3) * 256 + 1 * (y 1).val = win0_5.index t (1 : Fin 3) * 256 + (y 1).val; omega
    | ⟨2, _⟩ => show win0_0.index t (2 : Fin 3) * 64 + 1 * d.val = d.val; omega
  · intro k d
    show V m c main_arg1 (((cfg0.win 1).blk t).view.emb (ix3 (0 : Fin 1) k d)) = argK m c _
    rw [V_main_arg1]
    refine congrArg (argK m c) (funext fun a => Fin.ext ?_)
    match a with
    | ⟨0, _⟩ => show win0_1.index t (0 : Fin 3) * 1 + 1 * 0 = win0_5.index t (0 : Fin 3); omega
    | ⟨1, _⟩ => show win0_1.index t (1 : Fin 3) * 4096 + 1 * k.val = k.val; omega
    | ⟨2, _⟩ => show win0_1.index t (2 : Fin 3) * 64 + 1 * d.val = d.val; omega
  · intro k d
    show V m c main_arg2 (((cfg0.win 2).blk t).view.emb (ix3 (0 : Fin 1) k d)) = argV m c _
    rw [V_main_arg2]
    refine congrArg (argV m c) (funext fun a => Fin.ext ?_)
    match a with
    | ⟨0, _⟩ => show win0_2.index t (0 : Fin 3) * 1 + 1 * 0 = win0_5.index t (0 : Fin 3); omega
    | ⟨1, _⟩ => show win0_2.index t (1 : Fin 3) * 4096 + 1 * k.val = k.val; omega
    | ⟨2, _⟩ => show win0_2.index t (2 : Fin 3) * 64 + 1 * d.val = d.val; omega
  · intro k
    show (V m c main_v0 : S8x4096x4096.Idx → BitVec 32) (((cfg0.win 3).blk t).view.emb (ix3 (0 : Fin 1) (⟨(y 1).val, hy1⟩ : Fin 256) k))
        = (argM m c _).setWidth 32
    rw [V_mask_apply]
    refine congrArg (fun z => (argM m c z).setWidth 32) (funext fun a => Fin.ext ?_)
    match a with
    | ⟨0, _⟩ => show win0_3.index t (0 : Fin 3) * 1 + 1 * 0 = win0_5.index t (0 : Fin 3); omega
    | ⟨1, _⟩ => show win0_3.index t (1 : Fin 3) * 256 + 1 * (y 1).val = win0_5.index t (1 : Fin 3) * 256 + (y 1).val; omega
    | ⟨2, _⟩ => show win0_3.index t (2 : Fin 3) * 4096 + 1 * k.val = k.val; omega

/-! ## The blocks tile the arrays -/

/-- An index of the weights array is in point t's block iff each coordinate is in the block's range on its axis. -/
theorem mem_blk5 (t : Fin cfg0.N) (i : S8x4096x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v1_1).slice (win0_5.rect t)).set ↔ _
  rw [View.set_slice_whole, Rect.mem_set_unit]
  exact Iff.rfl

/-- The same for the context array. -/
theorem mem_blk4 (t : Fin cfg0.N) (i : S8x4096x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v1_0).slice (win0_4.rect t)).set ↔ _
  rw [View.set_slice_whole, Rect.mem_set_unit]
  exact Iff.rfl

/-- Entry (b, q, j) of the weights array is in the block of the point at batch b and tile q / 256. -/
theorem cover5 (i : S8x4096x4096.Idx) :
    ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

/-- Entry (b, q, d) of the context array likewise. -/
theorem cover4 (i : S8x4096x64.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  obtain ⟨a00, a01, a02, a10, a11, a12, a20, a21, a22, a30, a31, a32, a40, a41, a42, b0, b1, b2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-! ## The arrays after the run -/

/-- The weights array ends holding the attention matrix of the arguments. -/
theorem final5 (c : Dev nD) : (dats m 0 c).arrAt 5 cfg0.N = attnArray (argQ m c) (argK m c) (argM m c) :=
  (dats m 0 c).arrAt_eq_of_cover 5 (attnArray (argQ m c) (argK m c) (argM m c)) (fun t _ => flushed5_eq m c t) cover5

/-- The context array ends holding the context of the arguments. -/
theorem final4 (c : Dev nD) : (dats m 0 c).arrAt 4 cfg0.N = ctxArray (argQ m c) (argK m c) (argV m c) (argM m c) :=
  (dats m 0 c).arrAt_eq_of_cover 4 (ctxArray (argQ m c) (argK m c) (argV m c) (argM m c)) (fun t _ => flushed4_eq m c t) cover4

/-- Every weakly fair execution of the kernel's program terminates with the two results at the context and the attention
    matrix of the argument arrays, the arguments unchanged. -/
theorem run : θ_run defs (onTc (τ := τ) (main (F := Ideal))) ⟨m, fun _ => 0, ρ⟩ fun r => ∀ c : Dev nD,
      r.2.mem ((c : Thread nD τ).loc main_v1_0) = ctxArray (argQ m c) (argK m c) (argV m c) (argM m c)
      ∧ r.2.mem ((c : Thread nD τ).loc main_v1_1) = attnArray (argQ m c) (argK m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.Arrays

end
-- ==== Proof.RefValue.lean ====
/-
  The reference program, one stage at a time, is masked scaled dot-product attention.

  Read at (b, q, j): the batched product of queries and keys is the dot product of query row (b, q) with key row (b, j);
  divided by 8 and masked it is the score; the reduction of the scores along the keys from -infinity is the row maximum
  (the further maximum with -infinity changes nothing); the exponential of the difference, over the sum of the row's
  exponentials starting from zero, is the softmax weight; the batched product with the values is the context.
-/
import proofs.«138386_j33784212750985_2_alg».proof.Proof.Gen.ReferenceIdeal.Read
import proofs.«138386_j33784212750985_2_alg».proof.Proof.Softmax
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Attn

variable (x0 x1 x2 : (⟨S8x4096x64, .f32⟩ : BufTy).Contents (Elt Ideal)) (x3 : (⟨S8x4096x4096, .i1⟩ : BufTy).Contents (Elt Ideal))

/-- The masked, scaled score at (b, q, j). -/
theorem score_at (b : Fin 8) (q j : Fin 4096) :
    val_main_v3 (F := Ideal) x0 x1 x3 (ix3 b q j) = scores x0 x1 x3 b q j := by
  rw [val_main_v3_apply, val_main_call0_v0_apply, val_main_cst_0_apply, val_main_v2_apply, val_main_v1_apply,
    val_main_cst_apply, val_main_v0_apply]
  have el : ∀ k : Fin 64, lidx_main_v0 (ix3 b q j) k = ix3 b q k := fun k => funext fun a => Fin.ext (by
    match a with | ⟨0, _⟩ => rfl | ⟨1, _⟩ => rfl | ⟨2, _⟩ => rfl)
  have er : ∀ k : Fin 64, ridx_main_v0 (ix3 b q j) k = ix3 b j k := fun k => funext fun a => Fin.ext (by
    match a with | ⟨0, _⟩ => rfl | ⟨1, _⟩ => rfl | ⟨2, _⟩ => rfl)
  simp only [el, er]
  rfl

/-- The key-axis reduction's inserted index: (b, q) with key k put back is (b, q, k). -/
theorem lift_key (hr : S8x4096x4096.Reduces [2] S8x4096) (b : Fin 8) (q k : Fin 4096) :
    hr.lift (ix2 b q) k = ix3 b q k :=
  funext fun a => Fin.ext (by match a with | ⟨0, _⟩ => rfl | ⟨1, _⟩ => rfl | ⟨2, _⟩ => rfl)

/-- The row maximum at (b, q). -/
theorem rowmax_at (b : Fin 8) (q : Fin 4096) :
    val_main_v6 (F := Ideal) x0 x1 x3 (ix2 b q) = rowMax (scores x0 x1 x3 b q) := by
  have hr : S8x4096x4096.Reduces [2] S8x4096 := by decide
  rw [val_main_v6_apply, val_main_v5_apply, val_main_cst_2_apply]
  unfold val_main_v4
  rw [Host.reduce_eq_fold_single FloatOps.maximumf _ _ reducesTo_S8x4096x4096_S8x4096_d2 hr h_S_ (ix2 b q)]
  have hf : (val_main_v3 (F := Ideal) x0 x1 x3 ∘ hr.lift (ix2 b q)) = scores x0 x1 x3 b q :=
    funext fun k => (congrArg (val_main_v3 (F := Ideal) x0 x1 x3) (lift_key hr b q k)).trans (score_at x0 x1 x3 b q k)
  rw [hf]
  exact max_rowMax _

/-- The exponential of the score less the row maximum, at (b, q, j). -/
theorem exp_at (b : Fin 8) (q j : Fin 4096) :
    val_main_v10 (F := Ideal) x0 x1 x3 (ix3 b q j)
      = Ideal.exp (scores x0 x1 x3 b q j - rowMax (scores x0 x1 x3 b q)) := by
  have e : idx_main_v7 (idx_main_v8 (ix3 b q j)) = ix2 b q := funext fun a => Fin.ext (by
    match a with | ⟨0, _⟩ => rfl | ⟨1, _⟩ => rfl)
  rw [val_main_v10_apply, val_main_v9_apply, val_main_v8_apply, val_main_v7_apply, e, score_at, rowmax_at]
  rfl

/-- The attention weight at (b, q, j). -/
theorem weight_at (b : Fin 8) (q j : Fin 4096) :
    val_main_v14 (F := Ideal) x0 x1 x3 (ix3 b q j) = weights x0 x1 x3 b q j := by
  have e : idx_main_v12 (idx_main_v13 (ix3 b q j)) = ix2 b q := funext fun a => Fin.ext (by
    match a with | ⟨0, _⟩ => rfl | ⟨1, _⟩ => rfl)
  have e' : ∀ k : Fin 4096, idx_main_v11 (ix2 b q) k = ix3 b q k := fun k => funext fun a => Fin.ext (by
    match a with | ⟨0, _⟩ => rfl | ⟨1, _⟩ => rfl | ⟨2, _⟩ => rfl)
  rw [val_main_v14_apply, val_main_v13_apply, val_main_v12_apply, e, val_main_v11_apply, val_main_cst_3_apply]
  simp only [e', exp_at]
  unfold weights softmaxRow
  simp only [Ideal.hostDivf_def, Ideal.ofBits_def, Ideal.ofBits_zero_f32, zero_add]

/-- The context at (b, q, d). -/
theorem ctx_at (b : Fin 8) (q : Fin 4096) (d : Fin 64) :
    val_main_v15 (F := Ideal) x0 x1 x2 x3 (ix3 b q d) = ∑ j : Fin 4096, weights x0 x1 x3 b q j * x2 (ix3 b j d) := by
  rw [val_main_v15_apply]
  refine Finset.sum_congr rfl fun k _ => ?_
  have el : lidx_main_v15 (ix3 b q d) k = ix3 b q k := funext fun a => Fin.ext (by
    match a with | ⟨0, _⟩ => rfl | ⟨1, _⟩ => rfl | ⟨2, _⟩ => rfl)
  have er : ridx_main_v15 (ix3 b q d) k = ix3 b k d := funext fun a => Fin.ext (by
    match a with | ⟨0, _⟩ => rfl | ⟨1, _⟩ => rfl | ⟨2, _⟩ => rfl)
  rw [el, er, weight_at]

/-- The reference's attention result is the attention matrix of its arguments. -/
theorem attn_eq : val_main_v14 (F := Ideal) x0 x1 x3 = attnArray x0 x1 x3 := funext fun i => by
  obtain ⟨b, q, j, rfl⟩ : ∃ (b : Fin 8) (q j : Fin 4096), i = ix3 b q j := ⟨i 0, i 1, i 2, eq_ix3 i⟩
  exact weight_at x0 x1 x3 b q j

/-- The reference's context result is the context of its arguments. -/
theorem ctx_eq : val_main_v15 (F := Ideal) x0 x1 x2 x3 = ctxArray x0 x1 x2 x3 := funext fun i => by
  obtain ⟨b, q, d, rfl⟩ : ∃ (b : Fin 8) (q : Fin 4096) (d : Fin 64), i = ix3 b q d := ⟨i 0, i 1, i 2, eq_ix3 i⟩
  exact ctx_at x0 x1 x2 x3 b q d

end Cert.ReferenceIdeal.RefValue

end
-- ==== Proof.lean ====
/-
  A tiled attention kernel against the plain formula.

  Both programs take queries, keys and values of shape [8, 4096, 64] and a mask of shape [8, 4096, 4096], and return the
  context [8, 4096, 64] and the attention matrix [8, 4096, 4096].  The attention matrix is, row by row, the softmax of the
  masked scores: the score of query (b, q) against key (b, j) is their dot product over the 64 features divided by 8, or
  -10000 where the mask is set; the context is the attention matrix applied to the values.

  The kernel works on one batch and 256 query rows at a time, and scales the query rows by 2^-3 BEFORE the dot product,
  where the reference divides the dot product by 8 afterwards.  On extended reals these agree for every input, infinite
  entries included: a nonnegative finite factor distributes over any extended-real sum (Proof/Softmax.lean).  Everything
  after the scores is the same function on both sides: a row maximum folded from -infinity (the reference's extra maximum
  with -infinity changes nothing), exponentials, their row sum from zero, a quotient, and a sum of products.

  Proof/KernelBlock.lean reads the kernel body's two stored values at an entry; Proof/KernelValue.lean shows that the
  blocks written back over the 8 x 16 grid tile the two result arrays, so each ends as one function of the argument
  arrays; Proof/RefValue.lean reads the reference's stages down to the same two functions.  The mask reaches the kernel
  widened to 32-bit words and is tested for being nonzero, which gives the bit back.
-/
import proofs.«138386_j33784212750985_2_alg».proof.Defs
import proofs.«138386_j33784212750985_2_alg».proof.Proof.Gen.Kernel
import proofs.«138386_j33784212750985_2_alg».proof.Proof.Gen.Kernel.Frame
import proofs.«138386_j33784212750985_2_alg».proof.Proof.Gen.KernelIdeal
import proofs.«138386_j33784212750985_2_alg».proof.Proof.Gen.KernelIdeal.Frame
import proofs.«138386_j33784212750985_2_alg».proof.Proof.Gen.KernelIdeal.Value
import proofs.«138386_j33784212750985_2_alg».proof.Proof.Gen.ReferenceIdeal
import proofs.«138386_j33784212750985_2_alg».proof.Proof.Gen.ReferenceIdeal.Run
import proofs.«138386_j33784212750985_2_alg».proof.Proof.Gen.ReferenceIdeal.Read
import proofs.«138386_j33784212750985_2_alg».proof.Proof.Gen.Pre_finite_inputs
import proofs.«138386_j33784212750985_2_alg».proof.Proof.KernelValue
import proofs.«138386_j33784212750985_2_alg».proof.Proof.RefValue
import Idealize.ShloMosaic.Adequacy
import Idealize.ShloMosaic.Init

noncomputable section

namespace Cert.Proof

open Idealize.ShloMosaic Idealize.SL.Sem
open Cert.Attn Cert.KernelIdeal.Arrays

/-- The kernel's program as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten when it was read over the extended reals. -/
theorem preserves : Cert.preserves_Kernel_KernelIdeal := trivial

/-- From arguments that agree, both programs end with the context and the attention matrix of those arguments. -/
theorem algebraic : Cert.algebraic_KernelIdeal_ReferenceIdeal := by
  intro m ρ m' ρ' _ hagree
  refine ⟨fun c => ctxArray (argQ m c) (argK m c) (argV m c) (argM m c),
    fun c => attnArray (argQ m c) (argK m c) (argM m c), Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine ((Cert.ReferenceIdeal.Read.val_main_v15_eq _ _ _ _).trans (Cert.ReferenceIdeal.RefValue.ctx_eq _ _ _ _)).trans ?_
    rw [(hagree c).1, (hagree c).2.1, (hagree c).2.2.1, (hagree c).2.2.2]
  · refine ((Cert.ReferenceIdeal.Read.val_main_v14_eq _ _ _).trans (Cert.ReferenceIdeal.RefValue.attn_eq _ _ _)).trans ?_
    rw [(hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
